-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S1600000 32) (main_arg2 : IVec S1600000 32) (main_arg3 : FVec F S64x64 .f32) (main_arg4 : FVec F S64 .f32) (main_arg5 : FVec F S64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 45
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S50000x64, .f32⟩
  | .hbm, ⟨38, _⟩ => ⟨S1600000x1, .i32⟩
  | .hbm, ⟨39, _⟩ => ⟨S50000x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S50000x1, .f32⟩
  | .hbm, ⟨44, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S64_S1x64 : S64.ShapeCasts S1x64
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000, .f32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_call3_cst : Ref sig .tc := ⟨.hbm, 53, rfl⟩
abbrev main_call3_v0 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RowSpec.lean ====
/-
  The dense tail of the graph-convolution layer, written for ONE node (one row of the node-feature matrix), over the
  extended reals. A node's output row depends on its own aggregated row `a`, its clamped in-degree `d`, its own input
  row `f`, and on the layer's parameters `W`, `b`, `γ`, `β`:

    lin c   = Σ_k (a k · d^(-1/2)) · W k c + b c
    out c   = max (max (lin c) 0) 0 + f c                 (the two rectifications, then the residual)
    μ       = (Σ_c out c) / 64
    σ²      = (Σ_c (out c − μ)²) / 64
    row q   = (out q − μ) · (σ² + ε)^(-1/2) · γ q + β q    (layer normalisation over the 64 features)

  The float literals (0, 64, ε) are kept as their words: the same word stands on both sides of every equation below.
-/
import Idealize.ShloMosaic.PureOps.Ideal
import Idealize.ShloMosaic.Lib.ValueIdx

noncomputable section

namespace Cert.GcnRow

open Idealize.ShloMosaic

/-- The literal zero the rectifications compare against. -/
abbrev zero : EReal := Ideal.ofBits .f32 0x00000000#32
/-- The feature count, 64, as the divisor of both means. -/
abbrev nfeat : EReal := Ideal.ofBits .f32 0x42800000#32
/-- The layer normalisation's ε (the float nearest 1e-5). -/
abbrev eps : EReal := Ideal.ofBits .f32 0x3727C5AC#32

/-- The linear map of the degree-normalised aggregated row, plus the bias, rectified twice, plus the node's own input. -/
def out (a f : Fin 64 → EReal) (d : EReal) (W : Fin 64 → Fin 64 → EReal) (b : Fin 64 → EReal) (c : Fin 64) : EReal :=
  max (max ((∑ k : Fin 64, (a k * Ideal.rsqrt d) * W k c) + b c) zero) zero + f c

/-- The mean of a row of 64 features. -/
def mean (x : Fin 64 → EReal) : EReal := Ideal.div (∑ c : Fin 64, x c) nfeat

/-- A row centred at its mean and scaled by the inverse square root of its variance plus ε. -/
def normed (x : Fin 64 → EReal) (q : Fin 64) : EReal :=
  (x q - mean x) * Ideal.rsqrt (mean (fun c => (x c - mean x) * (x c - mean x)) + eps)

/-- One node's output row. -/
def row (a f : Fin 64 → EReal) (d : EReal) (W : Fin 64 → Fin 64 → EReal) (b g β : Fin 64 → EReal) (q : Fin 64) : EReal :=
  normed (out a f d W b) q * g q + β q

end Cert.GcnRow

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.BlockRow.lean ====
/-
  One block of the kernel, read row by row. At a grid point the body holds a [5000, 64] block of aggregated features, the
  matching [5000, 1] column of clamped in-degrees, the matching [5000, 64] block of input features, and the whole of the
  parameters. What it leaves at row `p`, column `q` of its output block is the single-node function `GcnRow.row` of
  row `p` of each block: no entry of any other row enters it. The steps: the degree scaling and the bias are broadcasts
  read at an index; the matrix product into a zero accumulator is the plain sum over the 64 contracted features; each of
  the two lane sums is the plain sum over a row's 64 columns; a mean kept as a column and broadcast back along its row
  reads the row's own mean.
-/
import proofs.«137395_j19636590477404_2_alg».proof.Proof.Gen.KernelIdeal.Skeleton
import proofs.«137395_j19636590477404_2_alg».proof.Proof.RowSpec
import proofs.«137395_j19636590477404_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRow

open Cert.KernelIdeal Cert.KernelIdeal.Gen Idealize.ShloMosaic Idealize.ShloMosaic.ValueIdx Cert.GcnRow

/-! ## The stages of the body, as functions of whole blocks -/

/-- The aggregated block with each row scaled by the inverse square root of that row's degree. -/
def scaled (x0 : Vec Ideal S5000x64 .f32) (x1 : Vec Ideal S5000x1 .f32) : FVec Ideal S5000x64 .f32 :=
  mulf (shapeCast S5000x64 x0 shapeCasts_S5000x64_S5000x64)
    (broadcastTo S5000x64 (rsqrt (shapeCast S5000x1 x1 shapeCasts_S5000x1_S5000x1)) broadcasts_S5000x1_S5000x64)

/-- The scaled block times the weights (into a zero accumulator), plus the bias row. -/
def lin (x0 : Vec Ideal S5000x64 .f32) (x1 : Vec Ideal S5000x1 .f32) (x3 : Vec Ideal S64x64 .f32) (x4 : Vec Ideal S1x64 .f32) :
    FVec Ideal S5000x64 .f32 :=
  addf (matmul dot_S5000x64_S64x64_S5000x64_1_0_0_1_n_n none (truncf .bf16 (scaled x0 x1) bitsLt_bf16_f32)
      (truncf .bf16 x3 bitsLt_bf16_f32) (constant S5000x64 .f32 0x00000000#32))
    (broadcastTo S5000x64 (shapeCast S1x64 x4 shapeCasts_S1x64_S1x64) broadcasts_S1x64_S5000x64)

/-- Rectified twice, plus the input block. -/
def resid (x0 : Vec Ideal S5000x64 .f32) (x1 : Vec Ideal S5000x1 .f32) (x2 : Vec Ideal S5000x64 .f32) (x3 : Vec Ideal S64x64 .f32)
    (x4 : Vec Ideal S1x64 .f32) : FVec Ideal S5000x64 .f32 :=
  addf (maximumf (maximumf (lin x0 x1 x3 x4) (broadcast S5000x64 (Scalar.ofBits .f32 0x00000000#32)))
    (broadcast S5000x64 (Scalar.ofBits .f32 0x00000000#32))) x2

/-- The column of row means of a block: the lane sum, kept as a column, over 64. -/
def meanCol (v : FVec Ideal S5000x64 .f32) : FVec Ideal S5000x1 .f32 :=
  divf (shapeCast S5000x1 (multiReduction .add [1] S5000 v 0x00000000#32 reduces_S5000x64_S5000 (.inl rfl) rfl) shapeCasts_S5000_S5000x1)
    (broadcast S5000x1 (Scalar.ofBits .f32 0x42800000#32))

/-- A block with each row's mean subtracted. -/
def centred (v : FVec Ideal S5000x64 .f32) : FVec Ideal S5000x64 .f32 :=
  subf v (broadcastTo S5000x64 (meanCol v) broadcasts_S5000x1_S5000x64)

/-- The centred block scaled, row by row, by the inverse square root of the row's variance plus ε. -/
def normedBlk (v : FVec Ideal S5000x64 .f32) : FVec Ideal S5000x64 .f32 :=
  mulf (centred v) (broadcastTo S5000x64 (rsqrt (addf (meanCol (mulf (centred v) (centred v)))
    (broadcast S5000x1 (Scalar.ofBits .f32 0x3727C5AC#32)))) broadcasts_S5000x1_S5000x64)

/-- The body's arithmetic before the affine scale is exactly these stages composed. -/
theorem pay2_eq (x0 : Vec Ideal S5000x64 .f32) (x1 : Vec Ideal S5000x1 .f32) (x2 : Vec Ideal S5000x64 .f32) (x3 : Vec Ideal S64x64 .f32)
    (x4 : Vec Ideal S1x64 .f32) : k0_pay2 x0 x1 x2 x3 x4 = normedBlk (resid x0 x1 x2 x3 x4) := rfl

/-! ## Each stage at row `p` -/

theorem scaled_apply (x0 : Vec Ideal S5000x64 .f32) (x1 : Vec Ideal S5000x1 .f32) (p : Fin 5000) (k : Fin 64) :
    scaled x0 x1 (ix2 p k) = x0 (ix2 p k) * Ideal.rsqrt (x1 (ix2 p (0 : Fin 1))) := by
  unfold scaled
  rw [mulf_apply, shapeCast_self, shapeCast_self, Cert.LibKeepdims.broadcastTo_a1_ab_apply]
  rfl

/-- The left operand's index at output `i` and contraction `q`: the output's row, … -/
theorem lhs_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted feature. -/
theorem lhs_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contracted feature, … -/
theorem rhs_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem rhs_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The kernel's matrix product into the zero accumulator, at `(p, c)`: the sum over the contracted feature `k` of
    the left block at `(p, k)` times the right at `(k, c)`. -/
theorem dot_apply (l : FVec Ideal S5000x64 .bf16) (r : FVec Ideal S64x64 .bf16) (p : Fin 5000) (c : Fin 64) :
    matmul dot_S5000x64_S64x64_S5000x64_1_0_0_1_n_n none l r (constant S5000x64 .f32 0x00000000#32) (ix2 p c)
      = ∑ k : Fin 64, l (ix2 p k) * r (ix2 k c) := by
  show FloatOps.matmul dot_S5000x64_S64x64_S5000x64_1_0_0_1_n_n none l r (constant S5000x64 .f32 0x00000000#32) (ix2 p c) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p c) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p c) ((ValueIdx.contrEquiv1 dot_S5000x64_S64x64_S5000x64_1_0_0_1_n_n 64 rfl rfl).symm k) = ix2 k c := funext fun a => Fin.ext (by
    match a with
    | ⟨0, _⟩ => exact (rhs_0 _ _).trans hk
    | ⟨1, _⟩ => exact rhs_1 _ _)
  rw [el, er]

theorem resid_apply (x0 : Vec Ideal S5000x64 .f32) (x1 : Vec Ideal S5000x1 .f32) (x2 : Vec Ideal S5000x64 .f32) (x3 : Vec Ideal S64x64 .f32)
    (x4 : Vec Ideal S1x64 .f32) (p : Fin 5000) (c : Fin 64) :
    resid x0 x1 x2 x3 x4 (ix2 p c)
      = GcnRow.out (fun k => x0 (ix2 p k)) (fun k => x2 (ix2 p k)) (x1 (ix2 p (0 : Fin 1))) (fun k c' => x3 (ix2 k c'))
          (fun c' => x4 (ix2 (0 : Fin 1) c')) c := by
  unfold resid lin GcnRow.out
  show max (max (matmul dot_S5000x64_S64x64_S5000x64_1_0_0_1_n_n none (truncf .bf16 (scaled x0 x1) bitsLt_bf16_f32)
      (truncf .bf16 x3 bitsLt_bf16_f32) (constant S5000x64 .f32 0x00000000#32) (ix2 p c)
      + broadcastTo S5000x64 (shapeCast S1x64 x4 shapeCasts_S1x64_S1x64) broadcasts_S1x64_S5000x64 (ix2 p c)) GcnRow.zero) GcnRow.zero
      + x2 (ix2 p c) = _
  rw [dot_apply, shapeCast_self, broadcastTo_1b_ab_apply]
  refine congrArg (fun s => max (max (s + x4 (ix2 (0 : Fin 1) c)) GcnRow.zero) GcnRow.zero + x2 (ix2 p c)) ?_
  refine Finset.sum_congr rfl fun k _ => ?_
  show scaled x0 x1 (ix2 p k) * x3 (ix2 k c) = _
  rw [scaled_apply]

/-- A row's entry of the mean column is the mean of that row. -/
theorem meanCol_apply (v : FVec Ideal S5000x64 .f32) (p : Fin 5000) (u : Fin 1) :
    meanCol v (ix2 p u) = GcnRow.mean (fun c => v (ix2 p c)) := by
  unfold meanCol GcnRow.mean
  show Ideal.div (shapeCast S5000x1 (multiReduction .add [1] S5000 v 0x00000000#32 reduces_S5000x64_S5000 (.inl rfl) rfl)
    shapeCasts_S5000_S5000x1 (ix2 p u)) GcnRow.nfeat = _
  rw [Cert.LibKeepdims.shapeCast_a_a1_apply]
  refine congrArg (fun s => Ideal.div s GcnRow.nfeat) ?_
  refine (Ideal.multiReduction_add_single v 0x00000000#32 reduces_S5000x64_S5000 (.inl rfl) rfl (ix1 p)).trans ?_
  exact Finset.sum_congr rfl fun k _ => congrArg v (funext fun a => Fin.ext (by match a with | ⟨0, _⟩ => rfl | ⟨1, _⟩ => rfl))

theorem centred_apply (v : FVec Ideal S5000x64 .f32) (p : Fin 5000) (c : Fin 64) :
    centred v (ix2 p c) = v (ix2 p c) - GcnRow.mean (fun c' => v (ix2 p c')) := by
  unfold centred
  show v (ix2 p c) - broadcastTo S5000x64 (meanCol v) broadcasts_S5000x1_S5000x64 (ix2 p c) = _
  rw [Cert.LibKeepdims.broadcastTo_a1_ab_apply, meanCol_apply]

theorem normedBlk_apply (v : FVec Ideal S5000x64 .f32) (p : Fin 5000) (q : Fin 64) :
    normedBlk v (ix2 p q) = GcnRow.normed (fun c => v (ix2 p c)) q := by
  unfold normedBlk GcnRow.normed
  show centred v (ix2 p q) * broadcastTo S5000x64 (rsqrt (addf (meanCol (mulf (centred v) (centred v)))
    (broadcast S5000x1 (Scalar.ofBits .f32 0x3727C5AC#32)))) broadcasts_S5000x1_S5000x64 (ix2 p q) = _
  rw [Cert.LibKeepdims.broadcastTo_a1_ab_apply, centred_apply]
  show _ * Ideal.rsqrt (meanCol (mulf (centred v) (centred v)) (ix2 p (0 : Fin 1)) + GcnRow.eps) = _
  rw [meanCol_apply]
  refine congrArg (fun s => (v (ix2 p q) - GcnRow.mean fun c => v (ix2 p c)) * Ideal.rsqrt (GcnRow.mean s + GcnRow.eps)) ?_
  funext c
  show centred v (ix2 p c) * centred v (ix2 p c) = _
  rw [centred_apply]

/-- The body's arithmetic before the affine scale, at row `p`, column `q`. -/
theorem pay2_apply (x0 : Vec Ideal S5000x64 .f32) (x1 : Vec Ideal S5000x1 .f32) (x2 : Vec Ideal S5000x64 .f32) (x3 : Vec Ideal S64x64 .f32)
    (x4 : Vec Ideal S1x64 .f32) (p : Fin 5000) (q : Fin 64) :
    k0_pay2 x0 x1 x2 x3 x4 (ix2 p q)
      = GcnRow.normed (GcnRow.out (fun k => x0 (ix2 p k)) (fun k => x2 (ix2 p k)) (x1 (ix2 p (0 : Fin 1))) (fun k c' => x3 (ix2 k c'))
          (fun c' => x4 (ix2 (0 : Fin 1) c'))) q := by
  rw [pay2_eq, normedBlk_apply]
  refine congrArg (fun s => GcnRow.normed s q) ?_
  funext c
  exact resid_apply x0 x1 x2 x3 x4 p c

/-- What the body stores at row `p`, column `q` of its output block: the single-node function of row `p` of the blocks
    it loaded (the affine scale's γ and β are one-row blocks broadcast over the rows). -/
theorem pay1_apply (x0 : Vec Ideal S5000x64 .f32) (x1 : Vec Ideal S5000x1 .f32) (x2 : Vec Ideal S5000x64 .f32) (x3 : Vec Ideal S64x64 .f32)
    (x4 x5 x6 : Vec Ideal S1x64 .f32) (p : Fin 5000) (q : Fin 64) :
    k0_pay1 (k0_pay2 x0 x1 x2 x3 x4) x5 x6 (ix2 p q)
      = GcnRow.row (fun k => x0 (ix2 p k)) (fun k => x2 (ix2 p k)) (x1 (ix2 p (0 : Fin 1))) (fun k c' => x3 (ix2 k c'))
          (fun c' => x4 (ix2 (0 : Fin 1) c')) (fun c' => x5 (ix2 (0 : Fin 1) c')) (fun c' => x6 (ix2 (0 : Fin 1) c')) q := by
  unfold GcnRow.row
  show k0_pay2 x0 x1 x2 x3 x4 (ix2 p q) * broadcastTo S5000x64 (shapeCast S1x64 x5 shapeCasts_S1x64_S1x64) broadcasts_S1x64_S5000x64 (ix2 p q)
    + broadcastTo S5000x64 (shapeCast S1x64 x6 shapeCasts_S1x64_S1x64) broadcasts_S1x64_S5000x64 (ix2 p q) = _
  rw [shapeCast_self, shapeCast_self, broadcastTo_1b_ab_apply, broadcastTo_1b_ab_apply, pay2_apply]

end Cert.KernelIdeal.BlockRow

end
-- ==== Proof.LayerSpec.lean ====
/-
  The whole layer as one function of whole arrays: entry `(r, q)` of the result is the single-node function of node
  `r`'s own data — row `r` of the aggregated features, entry `r` of the clamped in-degrees, row `r` of the input features —
  and of the parameters. Which rows an entry depends on is all this says; the arithmetic is `GcnRow.row`.
-/
import proofs.«137395_j19636590477404_2_alg».proof.Proof.RowSpec

noncomputable section

namespace Cert.GcnRow

open Idealize.ShloMosaic Idealize.ShloMosaic.ValueIdx

/-- The layer's result, index by index, from the aggregated features `agg`, the clamped in-degrees `deg`, the input
    features `feats` and the parameters. -/
def layer (agg : (⟨2, ![50000, 64]⟩ : Shape).Idx → EReal) (deg : (⟨1, ![50000]⟩ : Shape).Idx → EReal)
    (feats : (⟨2, ![50000, 64]⟩ : Shape).Idx → EReal) (W : (⟨2, ![64, 64]⟩ : Shape).Idx → EReal)
    (b g β : (⟨1, ![64]⟩ : Shape).Idx → EReal) : (⟨2, ![50000, 64]⟩ : Shape).Idx → EReal :=
  fun i => row (fun k => agg (ix2 (i 0) k)) (fun k => feats (ix2 (i 0) k)) (deg (ix1 (i 0))) (fun k c => W (ix2 k c))
    (fun c => b (ix1 c)) (fun c => g (ix1 c)) (fun c => β (ix1 c)) (i 1)

/-- The same at an index written by coordinates. -/
theorem layer_apply (agg : (⟨2, ![50000, 64]⟩ : Shape).Idx → EReal) (deg : (⟨1, ![50000]⟩ : Shape).Idx → EReal)
    (feats : (⟨2, ![50000, 64]⟩ : Shape).Idx → EReal) (W : (⟨2, ![64, 64]⟩ : Shape).Idx → EReal)
    (b g β : (⟨1, ![64]⟩ : Shape).Idx → EReal) (r : Fin 50000) (q : Fin 64) :
    layer agg deg feats W b g β (ix2 r q)
      = row (fun k => agg (ix2 r k)) (fun k => feats (ix2 r k)) (deg (ix1 r)) (fun k c => W (ix2 k c))
          (fun c => b (ix1 c)) (fun c => g (ix1 c)) (fun c => β (ix1 c)) q := rfl

end Cert.GcnRow

end
-- ==== Proof.Blocks.lean ====
/-
  From blocks to the whole array. The grid has ten points; at point `t` the kernel reads rows `5000·t … 5000·t + 4999`
  of the aggregated features, of the in-degree column and of the input features, the whole of each parameter, and writes
  the same rows of the result. Row `p` of what it writes is the single-node function of row `p` of what it read, that is of
  row `5000·t + p` of the arrays: so the block written at `t` is block `t` of the whole-array function `GcnRow.layer`. The
  ten blocks tile the 50000 rows, so the array ends holding that function everywhere.
-/
import proofs.«137395_j19636590477404_2_alg».proof.Proof.Gen.KernelIdeal.Value
import proofs.«137395_j19636590477404_2_alg».proof.Proof.BlockRow
import proofs.«137395_j19636590477404_2_alg».proof.Proof.LayerSpec
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.GcnRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten grid points: the three row-blocked inputs move with the output's row
    block, the parameters stay at block zero, and the output's row block is one of the ten. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 9 :=
  (by decide +kernel : ∀ t : Fin grid0.N, _)

/-- Every one of the ten row blocks is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-- The array row that row `p` of point `t`'s blocks is. -/
def rowOf (t : Fin cfg0.N) (p : Fin 5000) : Fin 50000 :=
  ⟨win0_7.index t (0 : Fin 2) * 5000 + p.val, by
    have h := (idx_facts t).2.2.2.2.2.2.2.2.2.2.2.2.2.2.2
    have hp := p.isLt
    omega⟩

/-- THE BLOCK IDENTITY, for ANY arrays in the windows' places: reading the seven input windows' blocks at point `t` off
    arrays `A0 … A6` and running the body leaves block `t` of the layer function of those arrays — where the degree column
    `A2` and the three one-row parameter matrices `A4`, `A5`, `A6` are the column and one-row forms of vectors `D`, `B`, `G`,
    `Bt`. Stated over variables, so that no array's contents are ever looked into. -/
theorem block_eq (A0 A1 : S50000x64.Idx → EReal) (A2 : S50000x1.Idx → EReal) (A3 : S64x64.Idx → EReal) (A4 A5 A6 : S1x64.Idx → EReal)
    (D : S50000.Idx → EReal) (B G Bt : S64.Idx → EReal)
    (hD : A2 = shapeCast S50000x1 D shapeCasts_S50000_S50000x1)
    (hB : A4 = shapeCast S1x64 B shapeCasts_S64_S1x64)
    (hG : A5 = shapeCast S1x64 G shapeCasts_S64_S1x64)
    (hBt : A6 = shapeCast S1x64 Bt shapeCasts_S64_S1x64)
    (t : Fin cfg0.N) :
    (cfg0.win 7).cut (grid0.coords t)
      (out0_7 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6))
      = ((cfg0.win 7).blk t).view.read (Elt Ideal) (layer A0 D A1 A3 B G Bt) := by
  unfold out0_7
  rw [View.canon_unit_zero hz]
  simp only [View.ld_unit_zero (S := S5000x64) hz, View.ld_unit_zero (S := S5000x1) hz, View.ld_unit_zero (S := S64x64) hz,
    View.ld_unit_zero (S := S1x64) hz]
  obtain ⟨e00, e01, e10, e11, e20, e21, e30, e31, e40, e41, e50, e51, e60, e61, e71, e7⟩ := idx_facts t
  funext j
  obtain ⟨p, q, rfl⟩ : ∃ (p : Fin 5000) (q : Fin 64), j = ix2 p q := ⟨j 0, j 1, eq_ix2 (n0 := 5000) (n1 := 64) j⟩
  show k0_pay1 (k0_pay2 (((cfg0.win 0).blk t).view.read (Elt Ideal) A0) (((cfg0.win 2).blk t).view.read (Elt Ideal) A2)
      (((cfg0.win 1).blk t).view.read (Elt Ideal) A1) (((cfg0.win 3).blk t).view.read (Elt Ideal) A3)
      (((cfg0.win 4).blk t).view.read (Elt Ideal) A4)) (((cfg0.win 5).blk t).view.read (Elt Ideal) A5)
      (((cfg0.win 6).blk t).view.read (Elt Ideal) A6) (ix2 p q)
    = layer A0 D A1 A3 B G Bt (((cfg0.win 7).blk t).view.emb (ix2 p q))
  refine (BlockRow.pay1_apply _ _ _ _ _ _ _ p q).trans ?_
  have hout : ((cfg0.win 7).blk t).view.emb (ix2 p q) = ix2 (rowOf t p) q := by
    funext a; apply Fin.ext
    match a with
    | ⟨0, _⟩ => show win0_7.index t (0 : Fin 2) * 5000 + 1 * p.val = win0_7.index t (0 : Fin 2) * 5000 + p.val; omega
    | ⟨1, _⟩ => show win0_7.index t (1 : Fin 2) * 64 + 1 * q.val = q.val; omega
  rw [hout, layer_apply]
  have h0 : ∀ k : Fin 64, ((cfg0.win 0).blk t).view.read (Elt Ideal) A0 (ix2 p k) = A0 (ix2 (rowOf t p) k) := fun k => by
    show A0 (((cfg0.win 0).blk t).view.emb (ix2 p k)) = _
    refine congrArg A0 ?_
    funext a; apply Fin.ext
    match a with
    | ⟨0, _⟩ => show win0_0.index t (0 : Fin 2) * 5000 + 1 * p.val = win0_7.index t (0 : Fin 2) * 5000 + p.val; omega
    | ⟨1, _⟩ => show win0_0.index t (1 : Fin 2) * 64 + 1 * k.val = k.val; omega
  have h1 : ∀ k : Fin 64, ((cfg0.win 1).blk t).view.read (Elt Ideal) A1 (ix2 p k) = A1 (ix2 (rowOf t p) k) := fun k => by
    show A1 (((cfg0.win 1).blk t).view.emb (ix2 p k)) = _
    refine congrArg A1 ?_
    funext a; apply Fin.ext
    match a with
    | ⟨0, _⟩ => show win0_1.index t (0 : Fin 2) * 5000 + 1 * p.val = win0_7.index t (0 : Fin 2) * 5000 + p.val; omega
    | ⟨1, _⟩ => show win0_1.index t (1 : Fin 2) * 64 + 1 * k.val = k.val; omega
  have h2 : ((cfg0.win 2).blk t).view.read (Elt Ideal) A2 (ix2 p (0 : Fin 1)) = D (ix1 (rowOf t p)) := by
    show A2 (((cfg0.win 2).blk t).view.emb (ix2 p (0 : Fin 1))) = _
    have he : ((cfg0.win 2).blk t).view.emb (ix2 p (0 : Fin 1)) = ix2 (rowOf t p) (0 : Fin 1) := by
      funext a; apply Fin.ext
      match a with
      | ⟨0, _⟩ => show win0_2.index t (0 : Fin 2) * 5000 + 1 * p.val = win0_7.index t (0 : Fin 2) * 5000 + p.val; omega
      | ⟨1, _⟩ => show win0_2.index t (1 : Fin 2) * 1 + 1 * 0 = 0; omega
    rw [he, hD]
    exact Cert.LibKeepdims.shapeCast_a_a1_apply D shapeCasts_S50000_S50000x1 (rowOf t p) (0 : Fin 1)
  have h3 : ∀ (k c' : Fin 64), ((cfg0.win 3).blk t).view.read (Elt Ideal) A3 (ix2 k c') = A3 (ix2 k c') := fun k c' => by
    show A3 (((cfg0.win 3).blk t).view.emb (ix2 k c')) = _
    refine congrArg A3 ?_
    funext a; apply Fin.ext
    match a with
    | ⟨0, _⟩ => show win0_3.index t (0 : Fin 2) * 64 + 1 * k.val = k.val; omega
    | ⟨1, _⟩ => show win0_3.index t (1 : Fin 2) * 64 + 1 * c'.val = c'.val; omega
  have hrow : ∀ (X : S64.Idx → EReal) (x : S1x64.Idx → EReal) (hx : x = shapeCast S1x64 X shapeCasts_S64_S1x64)
      (i0 i1 : Nat) (h0' : i0 = 0) (h1' : i1 = 0) (c' : Fin 64) (y : S1x64.Idx)
      (hy0 : (y 0).val = i0 * 1 + 1 * 0) (hy1 : (y 1).val = i1 * 64 + 1 * c'.val), x y = X (ix1 c') := by
    intro X x hx i0 i1 h0' h1' c' y hy0 hy1
    have hy : y = ix2 (0 : Fin 1) c' := by
      funext a; apply Fin.ext
      match a with
      | ⟨0, _⟩ => show (y 0).val = 0; omega
      | ⟨1, _⟩ => show (y 1).val = c'.val; omega
    rw [hx, hy]
    exact shapeCast_a_1a_apply X shapeCasts_S64_S1x64 (0 : Fin 1) c'
  have h4 : ∀ c' : Fin 64, ((cfg0.win 4).blk t).view.read (Elt Ideal) A4 (ix2 (0 : Fin 1) c') = B (ix1 c') := fun c' =>
    hrow B A4 hB (win0_4.index t (0 : Fin 2)) (win0_4.index t (1 : Fin 2)) e40 e41 c'
      (((cfg0.win 4).blk t).view.emb (ix2 (0 : Fin 1) c')) rfl rfl
  have h5 : ∀ c' : Fin 64, ((cfg0.win 5).blk t).view.read (Elt Ideal) A5 (ix2 (0 : Fin 1) c') = G (ix1 c') := fun c' =>
    hrow G A5 hG (win0_5.index t (0 : Fin 2)) (win0_5.index t (1 : Fin 2)) e50 e51 c'
      (((cfg0.win 5).blk t).view.emb (ix2 (0 : Fin 1) c')) rfl rfl
  have h6 : ∀ c' : Fin 64, ((cfg0.win 6).blk t).view.read (Elt Ideal) A6 (ix2 (0 : Fin 1) c') = Bt (ix1 c') := fun c' =>
    hrow Bt A6 hBt (win0_6.index t (0 : Fin 2)) (win0_6.index t (1 : Fin 2)) e60 e61 c'
      (((cfg0.win 6).blk t).view.emb (ix2 (0 : Fin 1) c')) rfl rfl
  simp only [h0, h1, h2, h3, h4, h5, h6]

/-- WHAT POINT `t` WRITES BACK is block `t` of the layer function of the arrays the region finds: the block identity at
    those arrays. `D`, `B`, `G`, `Bt` are the vectors whose column or one-row forms the host staged. -/
theorem flushed_eq (c : Dev nD) (D : S50000.Idx → EReal) (B G Bt : S64.Idx → EReal)
    (hD : (V m c main_v28 : S50000x1.Idx → EReal) = shapeCast S50000x1 D shapeCasts_S50000_S50000x1)
    (hB : (V m c main_v25 : S1x64.Idx → EReal) = shapeCast S1x64 B shapeCasts_S64_S1x64)
    (hG : (V m c main_v26 : S1x64.Idx → EReal) = shapeCast S1x64 G shapeCasts_S64_S1x64)
    (hBt : (V m c main_v27 : S1x64.Idx → EReal) = shapeCast S1x64 Bt shapeCasts_S64_S1x64)
    (t : Fin cfg0.N) :
    (dats m 0 c).flushed 7 t = ((cfg0.win 7).blk t).view.read (Elt Ideal)
      (layer (V m c main_v24) D (V m c main_arg0) (V m c main_arg3) B G Bt) :=
  (Value.flushed7 m c t).trans
    (block_eq (V m c main_v24) (V m c main_arg0) (V m c main_v28) (V m c main_arg3) (V m c main_v25) (V m c main_v26) (V m c main_v27)
      D B G Bt hD hB hG hBt t)

/-- An index of the array is in point `t`'s block iff each coordinate is in the block's range on its axis. -/
theorem mem_blk (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v29).slice (win0_7.rect t)).set ↔ _
  rw [View.set_slice_whole, Rect.mem_set_unit]
  exact Iff.rfl

/-- The ten row blocks tile the 50000 rows: row `r` is in the block of the point whose row block is `r / 5000`. -/
theorem cover (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- THE ARRAY after the run is the layer function of the arrays the region found. -/
theorem final (c : Dev nD) (D : S50000.Idx → EReal) (B G Bt : S64.Idx → EReal)
    (hD : (V m c main_v28 : S50000x1.Idx → EReal) = shapeCast S50000x1 D shapeCasts_S50000_S50000x1)
    (hB : (V m c main_v25 : S1x64.Idx → EReal) = shapeCast S1x64 B shapeCasts_S64_S1x64)
    (hG : (V m c main_v26 : S1x64.Idx → EReal) = shapeCast S1x64 G shapeCasts_S64_S1x64)
    (hBt : (V m c main_v27 : S1x64.Idx → EReal) = shapeCast S1x64 Bt shapeCasts_S64_S1x64) :
    (dats m 0 c).arrAt 7 cfg0.N = layer (V m c main_v24) D (V m c main_arg0) (V m c main_arg3) B G Bt :=
  (dats m 0 c).arrAt_eq_of_cover 7 _ (fun t _ => flushed_eq m c D B G Bt hD hB hG hBt t) cover

end Cert.KernelIdeal.Blocks

end
-- ==== Proof.HostSide.lean ====
/-
  What the kernel's region finds in the arrays the host wrote before it. The host counts each node's edges (ones
  scattered by an edge endpoint), clamps the counts below at one, scales each node's features by the inverse square root
  of its out-degree, gathers the scaled features along the edges' sources and sums them into the edges' destinations: the
  aggregated features. The in-degree goes to the kernel as a column, and the three parameter vectors as one-row matrices.
  The sparse operations are never opened here: they are named, so that the same names can stand on the reference's side.
-/
import proofs.«137395_j19636590477404_2_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem Idealize.ShloMosaic.StableHlo

/-- A node's degree: the number of edges whose endpoint `e` it is, clamped below at one. -/
def degK (e : (⟨S1600000, .i32⟩ : BufTy).Contents (Elt Ideal)) : (⟨S50000, .f32⟩ : BufTy).Contents (Elt Ideal) :=
  maximumf
    (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 e)
      (broadcastInDim S1600000 ![] bcast_S_S1600000 (constant (F := Ideal) S_ .f32 0x3F800000#32)))
    (broadcastInDim S50000 ![] bcast_S_S50000 (constant (F := Ideal) S_ .f32 0x3F800000#32))

/-- The aggregated features, from the out-degrees `dout`: features scaled by `dout^(-1/2)`, gathered at each edge's
    source (a negative index wrapped once), summed into each edge's destination. -/
def aggOf (dout : (⟨S50000, .f32⟩ : BufTy).Contents (Elt Ideal)) (x0 : (⟨S50000x64, .f32⟩ : BufTy).Contents (Elt Ideal))
    (x1 x2 : (⟨S1600000, .i32⟩ : BufTy).Contents (Elt Ideal)) : (⟨S50000x64, .f32⟩ : BufTy).Contents (Elt Ideal) :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 x2)
    (Host.gather gather_S50000x64_S1600000x1_S1600000x64_1_0_n_n_0_1_164
      (mulf x0 (broadcastInDim S50000x64 ![0, 1] bcast_S50000x1_S50000x64_0_1
        (broadcastInDim S50000x1 ![0] bcast_S50000_S50000x1_0 (Host.rsqrt (F := Ideal) dout))))
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 50000#32))) x1)))

variable (m : (ℓ : Loc nD τ sig) → Buf (Elt Ideal) ℓ)

set_option maxHeartbeats 4000000 in
/-- The kernel's first window stages the aggregated features. -/
theorem V_agg (c : Dev nD) : (V m c main_v24 : S50000x64.Idx → EReal)
    = aggOf (degK (m ((c : Thread nD τ).loc main_arg1))) (m ((c : Thread nD τ).loc main_arg0))
        (m ((c : Thread nD τ).loc main_arg1)) (m ((c : Thread nD τ).loc main_arg2)) := by
  dsimp only [V, hostOps0]
  after_results_simp
  rfl

/-- Its third window stages the clamped in-degrees as a column. -/
theorem V_deg (c : Dev nD) : (V m c main_v28 : S50000x1.Idx → EReal)
    = shapeCast S50000x1 (degK (m ((c : Thread nD τ).loc main_arg2))) shapeCasts_S50000_S50000x1 := by
  dsimp only [V, hostOps0]
  after_results
  rfl

/-- The bias as a one-row matrix. -/
theorem V_b (c : Dev nD) : (V m c main_v25 : S1x64.Idx → EReal)
    = shapeCast S1x64 (m ((c : Thread nD τ).loc main_arg4) : S64.Idx → EReal) shapeCasts_S64_S1x64 := by
  dsimp only [V, hostOps0]
  after_results
  rfl

/-- The normalisation's scale γ as a one-row matrix. -/
theorem V_g (c : Dev nD) : (V m c main_v26 : S1x64.Idx → EReal)
    = shapeCast S1x64 (m ((c : Thread nD τ).loc main_arg5) : S64.Idx → EReal) shapeCasts_S64_S1x64 := by
  dsimp only [V, hostOps0]
  after_results
  rfl

/-- The normalisation's shift β as a one-row matrix. -/
theorem V_beta (c : Dev nD) : (V m c main_v27 : S1x64.Idx → EReal)
    = shapeCast S1x64 (m ((c : Thread nD τ).loc main_arg6) : S64.Idx → EReal) shapeCasts_S64_S1x64 := by
  dsimp only [V, hostOps0]
  after_results
  rfl

end Cert.KernelIdeal.HostSide

end
-- ==== Proof.KernelRun.lean ====
/-
  The kernel's run, read: after every weakly fair execution the result array holds the layer function of the aggregated
  features the host computed (`aggOf` of the clamped out-degrees), of the clamped in-degrees, and of the arguments —
  the blockwise identity at the arrays the region finds, with each of those arrays named by what the host wrote there.
-/
import proofs.«137395_j19636590477404_2_alg».proof.Proof.Blocks
import proofs.«137395_j19636590477404_2_alg».proof.Proof.HostSide

noncomputable section

namespace Cert.KernelIdeal.KernelRun

open Cert.KernelIdeal Cert.KernelIdeal.Gen Idealize.ShloMosaic Idealize.ShloMosaic.TcCoe Idealize.SL.Sem Cert.GcnRow
open Cert.KernelIdeal.HostSide

variable (m : (ℓ : Loc nD τ sig) → Buf (Elt Ideal) ℓ) (ρ : Dev nD → PrngReg)

/-- The final array, with the arrays the region finds given as equations: whatever they are called, the result is the layer
    function of them. -/
theorem final_of (c : Dev nD) (A0 A1 : S50000x64.Idx → EReal) (A3 : S64x64.Idx → EReal) (D : S50000.Idx → EReal) (B G Bt : S64.Idx → EReal)
    (h24 : (V m c main_v24 : S50000x64.Idx → EReal) = A0) (h0 : (V m c main_arg0 : S50000x64.Idx → EReal) = A1)
    (h3 : (V m c main_arg3 : S64x64.Idx → EReal) = A3)
    (hD : (V m c main_v28 : S50000x1.Idx → EReal) = shapeCast S50000x1 D shapeCasts_S50000_S50000x1)
    (hB : (V m c main_v25 : S1x64.Idx → EReal) = shapeCast S1x64 B shapeCasts_S64_S1x64)
    (hG : (V m c main_v26 : S1x64.Idx → EReal) = shapeCast S1x64 G shapeCasts_S64_S1x64)
    (hBt : (V m c main_v27 : S1x64.Idx → EReal) = shapeCast S1x64 Bt shapeCasts_S64_S1x64) :
    ((dats m 0 c).arrAt 7 cfg0.N : S50000x64.Idx → EReal) = layer A0 D A1 A3 B G Bt := by
  subst h24 h0 h3
  exact Blocks.final m c D B G Bt hD hB hG hBt

/-- The kernel's result as a function of the argument arrays. -/
def result (c : Dev nD) : S50000x64.Idx → EReal :=
  layer (aggOf (degK (m ((c : Thread nD τ).loc main_arg1))) (m ((c : Thread nD τ).loc main_arg0)) (m ((c : Thread nD τ).loc main_arg1)) (m ((c : Thread nD τ).loc main_arg2)))
    (degK (m ((c : Thread nD τ).loc main_arg2))) (m ((c : Thread nD τ).loc main_arg0)) (m ((c : Thread nD τ).loc main_arg3))
    (m ((c : Thread nD τ).loc main_arg4)) (m ((c : Thread nD τ).loc main_arg5)) (m ((c : Thread nD τ).loc main_arg6))

theorem final (c : Dev nD) : ((dats m 0 c).arrAt 7 cfg0.N : S50000x64.Idx → EReal) = result m c :=
  final_of m c _ _ _ _ _ _ _ (V_agg m c) (V_main_arg0 m c) (V_main_arg3 m c) (V_deg m c) (V_b m c) (V_g m c) (V_beta m c)

/-- Every weakly fair execution of the kernel's program terminates with the result array at `result` and the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KernelRun

end
-- ==== Proof.RefSide.lean ====
/-
  The reference, read row by row. Its dense tail is stated on whole [50000, 64] arrays; read at `(r, q)` every stage
  depends only on row `r` of the aggregated features, entry `r` of the clamped in-degrees and row `r` of the input
  features: the degree scaling and the bias are broadcasts, the matrix product is the sum over the 64 contracted
  features, each mean is a row sum (from a zero initial value) over 64, broadcast back along the row. So its result is
  the whole-array function `GcnRow.layer` of its own aggregated features and in-degrees.
-/
import proofs.«137395_j19636590477404_2_alg».proof.Proof.Gen.ReferenceIdeal.Read
import proofs.«137395_j19636590477404_2_alg».proof.Proof.LayerSpec
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx Cert.GcnRow

/- The aggregated features and the clamped in-degrees are results of the sparse operations; every lemma below treats them as
   given arrays and never looks into them. -/
attribute [local irreducible] val_main_v22 val_main_v8

variable (x0 : (⟨S50000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal))

/-- The aggregated features scaled by the inverse square root of the row's in-degree. -/
theorem v26_at (r : Fin 50000) (k : Fin 64) :
    val_main_v26 (F := Ideal) x0 x1 x2 (ix2 r k)
      = val_main_v22 (F := Ideal) x0 x1 x2 (ix2 r k) * Ideal.rsqrt (val_main_v8 (F := Ideal) x2 (ix1 r)) := by
  rw [val_main_v26_apply, val_main_v25_apply, val_main_v24_apply, val_main_v23_apply]
  have e : idx_main_v24 (idx_main_v25 (ix2 r k)) = ix1 r := funext fun a => Fin.ext (by match a with | ⟨0, _⟩ => rfl)
  rw [e]
  rfl

/-- The matrix product at `(r, c)`. -/
theorem v27_at (r : Fin 50000) (c : Fin 64) :
    val_main_v27 (F := Ideal) x0 x1 x2 x3 (ix2 r c)
      = ∑ k : Fin 64, (val_main_v22 (F := Ideal) x0 x1 x2 (ix2 r k) * Ideal.rsqrt (val_main_v8 (F := Ideal) x2 (ix1 r))) * x3 (ix2 k c) := by
  refine (val_main_v27_apply x0 x1 x2 x3 (ix2 r c)).trans (Finset.sum_congr rfl fun k _ => ?_)
  have el : lidx_main_v27 (ix2 r c) k = ix2 r k := funext fun a => Fin.ext (by match a with | ⟨0, _⟩ => rfl | ⟨1, _⟩ => rfl)
  have er : ridx_main_v27 (ix2 r c) k = ix2 k c := funext fun a => Fin.ext (by match a with | ⟨0, _⟩ => rfl | ⟨1, _⟩ => rfl)
  rw [el, er, v26_at]

/-- Bias, two rectifications, residual: the single-node `out` of row `r`. -/
theorem v33_at (r : Fin 50000) (c : Fin 64) :
    val_main_v33 (F := Ideal) x0 x1 x2 x3 x4 (ix2 r c)
      = GcnRow.out (fun k => val_main_v22 (F := Ideal) x0 x1 x2 (ix2 r k)) (fun k => x0 (ix2 r k)) (val_main_v8 (F := Ideal) x2 (ix1 r))
          (fun k c' => x3 (ix2 k c')) (fun c' => x4 (ix1 c')) c := by
  rw [val_main_v33_apply, val_main_v32_apply, val_main_v31_apply, val_main_v30_apply, v27_at, val_main_v29_apply, val_main_v28_apply,
    val_main_call3_v0_apply, val_main_call3_cst_apply, val_main_call2_v0_apply, val_main_call2_cst_apply]
  have e : idx_main_v28 (idx_main_v29 (ix2 r c)) = ix1 c := funext fun a => Fin.ext (by match a with | ⟨0, _⟩ => rfl)
  rw [e]
  rfl

/-- The first mean column at row `r`: the mean of that row. -/
theorem v37_at (r : Fin 50000) (u : Fin 1) :
    val_main_v37 (F := Ideal) x0 x1 x2 x3 x4 (ix2 r u) = GcnRow.mean (fun c => val_main_v33 (F := Ideal) x0 x1 x2 x3 x4 (ix2 r c)) := by
  rw [val_main_v37_apply, val_main_v35_apply, val_main_v36_apply, val_main_cst_7_apply]
  have e : idx_main_v35 (ix2 r u) = ix1 r := funext fun a => Fin.ext (by match a with | ⟨0, _⟩ => rfl)
  rw [e, val_main_v34_apply, val_main_cst_6_apply]
  unfold GcnRow.mean
  show Ideal.div (Ideal.ofBits .f32 0x00000000#32 + _) GcnRow.nfeat = _
  rw [Ideal.ofBits_zero_f32, zero_add]
  refine congrArg (fun s => Ideal.div s GcnRow.nfeat) (Finset.sum_congr rfl fun k _ => ?_)
  exact congrArg (val_main_v33 (F := Ideal) x0 x1 x2 x3 x4) (funext fun a => Fin.ext (by match a with | ⟨0, _⟩ => rfl | ⟨1, _⟩ => rfl))

/-- The centred row (first use). -/
theorem v39_at (r : Fin 50000) (c : Fin 64) :
    val_main_v39 (F := Ideal) x0 x1 x2 x3 x4 (ix2 r c)
      = val_main_v33 (F := Ideal) x0 x1 x2 x3 x4 (ix2 r c) - GcnRow.mean (fun c' => val_main_v33 (F := Ideal) x0 x1 x2 x3 x4 (ix2 r c')) := by
  rw [val_main_v39_apply, val_main_v38_apply]
  have e : idx_main_v38 (ix2 r c) = ix2 r (0 : Fin 1) := funext fun a => Fin.ext (by match a with | ⟨0, _⟩ => rfl | ⟨1, _⟩ => rfl)
  rw [e, v37_at]
  rfl

/-- The centred row (second use). -/
theorem v46_at (r : Fin 50000) (c : Fin 64) :
    val_main_v46 (F := Ideal) x0 x1 x2 x3 x4 (ix2 r c)
      = val_main_v33 (F := Ideal) x0 x1 x2 x3 x4 (ix2 r c) - GcnRow.mean (fun c' => val_main_v33 (F := Ideal) x0 x1 x2 x3 x4 (ix2 r c')) := by
  rw [val_main_v46_apply, val_main_v45_apply]
  have e : idx_main_v45 (ix2 r c) = ix2 r (0 : Fin 1) := funext fun a => Fin.ext (by match a with | ⟨0, _⟩ => rfl | ⟨1, _⟩ => rfl)
  rw [e, v37_at]
  rfl

/-- The variance column at row `r`: the mean of the squared centred row. -/
theorem v44_at (r : Fin 50000) (u : Fin 1) :
    val_main_v44 (F := Ideal) x0 x1 x2 x3 x4 (ix2 r u) = GcnRow.mean (fun c => val_main_v40 (F := Ideal) x0 x1 x2 x3 x4 (ix2 r c)) := by
  rw [val_main_v44_apply, val_main_v42_apply, val_main_v43_apply, val_main_cst_9_apply]
  have e : idx_main_v42 (ix2 r u) = ix1 r := funext fun a => Fin.ext (by match a with | ⟨0, _⟩ => rfl)
  rw [e, val_main_v41_apply, val_main_cst_8_apply]
  unfold GcnRow.mean
  show Ideal.div (Ideal.ofBits .f32 0x00000000#32 + _) GcnRow.nfeat = _
  rw [Ideal.ofBits_zero_f32, zero_add]
  refine congrArg (fun s => Ideal.div s GcnRow.nfeat) (Finset.sum_congr rfl fun k _ => ?_)
  exact congrArg (val_main_v40 (F := Ideal) x0 x1 x2 x3 x4) (funext fun a => Fin.ext (by match a with | ⟨0, _⟩ => rfl | ⟨1, _⟩ => rfl))

/-- The normalised row. -/
theorem v51_at (r : Fin 50000) (q : Fin 64) :
    val_main_v51 (F := Ideal) x0 x1 x2 x3 x4 (ix2 r q) = GcnRow.normed (fun c => val_main_v33 (F := Ideal) x0 x1 x2 x3 x4 (ix2 r c)) q := by
  rw [val_main_v51_apply, v46_at, val_main_v50_apply]
  have e : idx_main_v50 (ix2 r q) = ix2 r (0 : Fin 1) := funext fun a => Fin.ext (by match a with | ⟨0, _⟩ => rfl | ⟨1, _⟩ => rfl)
  rw [e, val_main_v49_apply, val_main_v48_apply, v44_at, val_main_v47_apply, val_main_cst_10_apply]
  unfold GcnRow.normed
  refine congrArg (fun s => (val_main_v33 (F := Ideal) x0 x1 x2 x3 x4 (ix2 r q) - GcnRow.mean fun c => val_main_v33 (F := Ideal) x0 x1 x2 x3 x4 (ix2 r c))
    * Ideal.rsqrt (GcnRow.mean s + GcnRow.eps)) ?_
  funext c
  rw [val_main_v40_apply, v39_at]
  rfl

variable (x5 x6 : (⟨S64, .f32⟩ : BufTy).Contents (Elt Ideal))

/-- The reference's result at `(r, q)`. -/
theorem v57_at (r : Fin 50000) (q : Fin 64) :
    val_main_v57 (F := Ideal) x0 x1 x2 x3 x4 x5 x6 (ix2 r q)
      = GcnRow.row (fun k => val_main_v22 (F := Ideal) x0 x1 x2 (ix2 r k)) (fun k => x0 (ix2 r k)) (val_main_v8 (F := Ideal) x2 (ix1 r))
          (fun k c' => x3 (ix2 k c')) (fun c' => x4 (ix1 c')) (fun c' => x5 (ix1 c')) (fun c' => x6 (ix1 c')) q := by
  rw [val_main_v57_apply, val_main_v54_apply, v51_at, val_main_v53_apply, val_main_v52_apply, val_main_v56_apply, val_main_v55_apply]
  have e5 : idx_main_v52 (idx_main_v53 (ix2 r q)) = ix1 q := funext fun a => Fin.ext (by match a with | ⟨0, _⟩ => rfl)
  have e6 : idx_main_v55 (idx_main_v56 (ix2 r q)) = ix1 q := funext fun a => Fin.ext (by match a with | ⟨0, _⟩ => rfl)
  rw [e5, e6]
  unfold GcnRow.row
  refine congrArg (fun s => GcnRow.normed s q * x5 (ix1 q) + x6 (ix1 q)) ?_
  funext c
  exact v33_at x0 x1 x2 x3 x4 r c

/-- THE REFERENCE'S RESULT is the layer function of its own aggregated features and clamped in-degrees. -/
theorem result_eq :
    (val_main_v57 (F := Ideal) x0 x1 x2 x3 x4 x5 x6 : S50000x64.Idx → EReal)
      = layer (val_main_v22 (F := Ideal) x0 x1 x2) (val_main_v8 (F := Ideal) x2) x0 x3 x4 x5 x6 := by
  funext i
  obtain ⟨r, q, rfl⟩ : ∃ (r : Fin 50000) (q : Fin 64), i = ix2 r q := ⟨i 0, i 1, eq_ix2 i⟩
  rw [layer_apply]
  exact v57_at x0 x1 x2 x3 x4 x5 x6 r q

end Cert.ReferenceIdeal.RefSide

end
-- ==== Proof.Bridge.lean ====
/-
  The two programs' sparse prefixes are one function. Both count a node's edges by scattering ones, both clamp the count
  below at one — the kernel's program as `max count 1`, the reference as `max 1 count`: equal since `max` is commutative —
  and both scale, gather and scatter-add the features in the same way. So the reference's clamped degrees are the
  kernel's `degK`, and its aggregated features are the kernel's `aggOf` of them. Every equation here is between whole
  arrays, never at an index: the sparse operations are named on both sides and never opened.
-/
import proofs.«137395_j19636590477404_2_alg».proof.Proof.HostSide
import proofs.«137395_j19636590477404_2_alg».proof.Proof.Gen.ReferenceIdeal.Read

noncomputable section

namespace Cert.Bridge

open Idealize.ShloMosaic
open Cert.ReferenceIdeal Cert.ReferenceIdeal.Gen Cert.ReferenceIdeal.Read

/-- The maximum of two arrays does not depend on their order. -/
theorem max_swap {s : Shape} (a b : FVec Ideal s .f32) : maximumf a b = maximumf b a := funext fun _ => max_comm _ _

/-- The edge count of each node (ones scattered by the endpoint `e`), as the reference spells it. -/
def countR (e : (⟨S1600000, .i32⟩ : BufTy).Contents (Elt Ideal)) : FVec Ideal S50000 .f32 :=
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0 e)
    (broadcastInDim S1600000 ![] bcast_S_S1600000 (constant (F := Ideal) S_ .f32 0x3F800000#32))

/-- The array of ones the counts are clamped against. -/
def onesR : FVec Ideal S50000 .f32 :=
  broadcastInDim S50000 ![] bcast_S_S50000 (constant (F := Ideal) S_ .f32 0x3F800000#32)

/-- The reference clamps its out-degree count as `max 1 count`. -/
theorem v4_form (e : (⟨S1600000, .i32⟩ : BufTy).Contents (Elt Ideal)) :
    (val_main_v4 (F := Ideal) e : FVec Ideal S50000 .f32) = maximumf onesR (countR e) := rfl

/-- … and its in-degree count likewise. -/
theorem v8_form (e : (⟨S1600000, .i32⟩ : BufTy).Contents (Elt Ideal)) :
    (val_main_v8 (F := Ideal) e : FVec Ideal S50000 .f32) = maximumf onesR (countR e) := rfl

/-- The kernel's program clamps the same count as `max count 1`. -/
theorem degK_form (e : (⟨S1600000, .i32⟩ : BufTy).Contents (Elt Ideal)) :
    (maximumf (countR e) onesR : FVec Ideal S50000 .f32) = (Cert.KernelIdeal.HostSide.degK e : FVec Ideal S50000 .f32) := rfl

/-- The reference's clamped out-degrees are the kernel's. -/
theorem degOut_eq (e : (⟨S1600000, .i32⟩ : BufTy).Contents (Elt Ideal)) :
    (val_main_v4 (F := Ideal) e : FVec Ideal S50000 .f32) = (Cert.KernelIdeal.HostSide.degK e : FVec Ideal S50000 .f32) :=
  (v4_form e).trans ((max_swap onesR (countR e)).trans (degK_form e))

/-- The reference's clamped in-degrees are the kernel's. -/
theorem degIn_eq (e : (⟨S1600000, .i32⟩ : BufTy).Contents (Elt Ideal)) :
    (val_main_v8 (F := Ideal) e : FVec Ideal S50000 .f32) = (Cert.KernelIdeal.HostSide.degK e : FVec Ideal S50000 .f32) :=
  (v8_form e).trans ((max_swap onesR (countR e)).trans (degK_form e))

/-- The aggregation from given out-degrees, as the reference spells it. -/
def aggR (dout : (⟨S50000, .f32⟩ : BufTy).Contents (Elt Ideal)) (x0 : (⟨S50000x64, .f32⟩ : BufTy).Contents (Elt Ideal))
    (x1 x2 : (⟨S1600000, .i32⟩ : BufTy).Contents (Elt Ideal)) : (⟨S50000x64, .f32⟩ : BufTy).Contents (Elt Ideal) :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 x2)
    (Host.gather gather_S50000x64_S1600000x1_S1600000x64_1_0_n_n_0_1_164
      (mulf x0 (broadcastInDim S50000x64 ![0, 1] bcast_S50000x1_S50000x64_0_1
        (broadcastInDim S50000x1 ![0] bcast_S50000_S50000x1_0 (Host.rsqrt (F := Ideal) dout))))
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 50000#32))) x1)))

/-- The reference's aggregated features are that aggregation of its own out-degrees. -/
theorem v22_form (x0 : (⟨S50000x64, .f32⟩ : BufTy).Contents (Elt Ideal)) (x1 x2 : (⟨S1600000, .i32⟩ : BufTy).Contents (Elt Ideal)) :
    val_main_v22 (F := Ideal) x0 x1 x2 = aggR (val_main_v4 (F := Ideal) x1) x0 x1 x2 := rfl

/-- The two programs' aggregations are one function: the same operations, described by equal records. -/
theorem aggR_eq (dout : (⟨S50000, .f32⟩ : BufTy).Contents (Elt Ideal)) (x0 : (⟨S50000x64, .f32⟩ : BufTy).Contents (Elt Ideal))
    (x1 x2 : (⟨S1600000, .i32⟩ : BufTy).Contents (Elt Ideal)) :
    aggR dout x0 x1 x2 = Cert.KernelIdeal.HostSide.aggOf dout x0 x1 x2 := rfl

/-- The reference's aggregated features are the kernel's. -/
theorem agg_eq (x0 : (⟨S50000x64, .f32⟩ : BufTy).Contents (Elt Ideal)) (x1 x2 : (⟨S1600000, .i32⟩ : BufTy).Contents (Elt Ideal)) :
    val_main_v22 (F := Ideal) x0 x1 x2 = Cert.KernelIdeal.HostSide.aggOf (Cert.KernelIdeal.HostSide.degK x1) x0 x1 x2 :=
  (v22_form x0 x1 x2).trans ((congrArg (fun d => aggR d x0 x1 x2) (degOut_eq x1)).trans (aggR_eq _ x0 x1 x2))

end Cert.Bridge

end
-- ==== Proof.lean ====
/-
  A graph-convolution layer with a residual and a layer normalisation, over 50000 nodes of 64 features and 1.6 million
  edges. Both programs first compute, with the same sparse operations, each node's clamped degrees and the aggregated
  features (source-side degree scaling, a gather along the edges' sources, a scatter-add into their destinations). The
  kernel then computes the dense tail — destination-side degree scaling, the linear map, two rectifications, the
  residual, the layer normalisation — block by block over ten blocks of 5000 rows, with the matrix product as an
  accumulated product and the means as lane sums; the reference computes it on whole arrays with a `dot_general` and host
  reductions. Over the extended reals these are one function: every entry `(r, q)` of the result is the single-node
  function `GcnRow.row` of node `r`'s own aggregated row, in-degree and input row (`GcnRow.layer`), on both sides
  (Proof/KernelRun.lean; Proof/RefSide.lean), and the two sparse prefixes agree as whole arrays, up to the order of the
  arguments of one `max` (Proof/Bridge.lean). No step distributes, cancels or moves a factor across a sum, so the
  inputs' finiteness is never used. The idealization rewrote nothing, so `preserves` asks nothing.
-/
import proofs.«137395_j19636590477404_2_alg».proof.Defs
import proofs.«137395_j19636590477404_2_alg».proof.Proof.Gen.Kernel
import proofs.«137395_j19636590477404_2_alg».proof.Proof.Gen.Kernel.Skeleton
import proofs.«137395_j19636590477404_2_alg».proof.Proof.Gen.Kernel.Launch
import proofs.«137395_j19636590477404_2_alg».proof.Proof.Gen.Kernel.Points
import proofs.«137395_j19636590477404_2_alg».proof.Proof.Gen.Kernel.Frame
import proofs.«137395_j19636590477404_2_alg».proof.Proof.Gen.KernelIdeal
import proofs.«137395_j19636590477404_2_alg».proof.Proof.Gen.KernelIdeal.Skeleton
import proofs.«137395_j19636590477404_2_alg».proof.Proof.Gen.KernelIdeal.Launch
import proofs.«137395_j19636590477404_2_alg».proof.Proof.Gen.KernelIdeal.Points
import proofs.«137395_j19636590477404_2_alg».proof.Proof.Gen.KernelIdeal.Frame
import proofs.«137395_j19636590477404_2_alg».proof.Proof.Gen.ReferenceIdeal
import proofs.«137395_j19636590477404_2_alg».proof.Proof.Gen.Pre_finite_inputs
import proofs.«137395_j19636590477404_2_alg».proof.Proof.Gen.KernelIdeal.Value
import proofs.«137395_j19636590477404_2_alg».proof.Proof.Gen.ReferenceIdeal.Run
import proofs.«137395_j19636590477404_2_alg».proof.Proof.Gen.ReferenceIdeal.Read
import proofs.«137395_j19636590477404_2_alg».proof.Proof.KernelRun
import proofs.«137395_j19636590477404_2_alg».proof.Proof.RefSide
import proofs.«137395_j19636590477404_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the layer function of the same
    aggregated features, the same clamped in-degrees and the same arguments. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefSide.result_eq, Cert.Bridge.agg_eq, Cert.Bridge.degIn_eq,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
